-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : FVec F S128x128 .f32) (main_arg2 : FVec F S128x128 .f32) (main_arg3 : FVec F S128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S8192x128 : Shape := ⟨2, ![8192, 128]⟩
abbrev S128x128 : Shape := ⟨2, ![128, 128]⟩
abbrev S128 : Shape := ⟨1, ![128]⟩
abbrev S128x8192 : Shape := ⟨2, ![128, 8192]⟩
abbrev S_ : Shape := ⟨0, ![]⟩
abbrev S128x1 : Shape := ⟨2, ![128, 1]⟩
abbrev S1x128 : Shape := ⟨2, ![1, 128]⟩
abbrev S128x8192x128 : Shape := ⟨3, ![128, 8192, 128]⟩
abbrev S128x128x128 : Shape := ⟨3, ![128, 128, 128]⟩
abbrev S1x1x128 : Shape := ⟨3, ![1, 1, 128]⟩
abbrev S32x128 : Shape := ⟨2, ![32, 128]⟩
abbrev S32x1 : Shape := ⟨2, ![32, 1]⟩
abbrev S32x128x1 : Shape := ⟨3, ![32, 128, 1]⟩
abbrev S32x1x128 : Shape := ⟨3, ![32, 1, 128]⟩
abbrev S32x128x128 : Shape := ⟨3, ![32, 128, 128]⟩

abbrev nBuf : Space → Nat
  | .hbm => 51
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x8192, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x128, .f32⟩
  | .hbm, ⟨30, _⟩ => ⟨S_, .f32⟩
  | .hbm, ⟨31, _⟩ => ⟨S128, .f32⟩
  | .hbm, ⟨32, _⟩ => ⟨S128x1, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S128x128, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S1x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S128x128, .f32⟩
  | .hbm, ⟨48, _⟩ => ⟨S128x128, .f32⟩
  | .hbm, ⟨49, _⟩ => ⟨S1x128, .f32⟩
  | .hbm, ⟨50, _⟩ => ⟨S128x8192x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S1x128, .f32⟩
  | .local _ .vmem, ⟨8, _⟩ => ⟨S128x128x128, .f32⟩
  | .local _ .vmem, ⟨9, _⟩ => ⟨S128x128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v4 : BitVec 32 := Scalar.muli arg9 c1_i32_2
  let v5 : BitVec 32 := Scalar.addi c0_i32_3 v4
  let c32_i32 : BitVec 32 := 32#32
  let v6 : BitVec 32 := Scalar.muli v5 c32_i32
  v6
def k0_off1 (k0_t1 : Fin k0_t1_loop.trips) : Fin 2 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v4 : BitVec 32 := Scalar.muli arg9 c1_i32_2
  let v5 : BitVec 32 := Scalar.addi c0_i32_3 v4
  let c32_i32 : BitVec 32 := 32#32
  let v6 : BitVec 32 := Scalar.muli v5 c32_i32
  let v7 : BitVec 32 := v6
  let v8 : Index := Scalar.indexCast v7
  let c0_4 : Index := 0#32
  ![v8.toNat, 0]
def k0_off2 (k0_t1 : Fin k0_t1_loop.trips) : Fin 2 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v4 : BitVec 32 := Scalar.muli arg9 c1_i32_2
  let v5 : BitVec 32 := Scalar.addi c0_i32_3 v4
  let c32_i32 : BitVec 32 := 32#32
  let v6 : BitVec 32 := Scalar.muli v5 c32_i32
  let v7 : BitVec 32 := v6
  let v17 : Index := Scalar.indexCast v7
  let c0_7 : Index := 0#32
  ![v17.toNat, 0]
def k0_off3 (k0_t1 : Fin k0_t1_loop.trips) : Fin 3 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v4 : BitVec 32 := Scalar.muli arg9 c1_i32_2
  let v5 : BitVec 32 := Scalar.addi c0_i32_3 v4
  let c32_i32 : BitVec 32 := 32#32
  let v6 : BitVec 32 := Scalar.muli v5 c32_i32
  let v7 : BitVec 32 := v6
  let v53 : Index := Scalar.indexCast v7
  let c0_11 : Index := 0#32
  let c0_12 : Index := 0#32
  ![v53.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S8192x128_S128x8192_1_0 : S8192x128.Transposes [1, 0] S128x8192
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  h_S32x128 : 0 < S32x128.numel
  shapeCasts_S32x128_S32x128 : S32x128.ShapeCasts S32x128
  h_S32x1 : 0 < S32x1.numel
  shapeCasts_S32x1_S32x1 : S32x1.ShapeCasts S32x1
  broadcasts_S32x1_S32x128 : S32x1.Broadcasts S32x128
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  broadcasts_S1x1x128_S32x128x128 : S1x1x128.Broadcasts S32x128x128
  h_S32x128x128 : 0 < S32x128x128.numel
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x128.size a ≤ S128x128.size a
  k0_off2_inb : ∀ k0_t1 : Fin k0_t1_loop.trips, ∀ a, (k0_off2 k0_t1) a + S32x1.size a ≤ S128x1.size a
  k0_off3_inb : ∀ k0_t1 : Fin k0_t1_loop.trips, ∀ a, (k0_off3 k0_t1) a + S32x128x128.size a ≤ S128x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x8192.size a
  hwx0_0 : ∀ i : grid0.Coords, EltTy.bits .f32 = 32 ∨ (Rect.block (s := S128x8192) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128x128.size a ≤ S128x8192x128.size a
  hwx0_7 : ∀ i : grid0.Coords, EltTy.bits .f32 = 32 ∨ (Rect.block (s := S128x8192x128) S128x128x128.size (cc0_transform_7 i) (hinb0_7 i)).WholeWords (EltTy.packing .f32)

variable [Facts₀]

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S128x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x128 : Shape := ⟨2, ![128, 128]⟩
abbrev S128 : Shape := ⟨1, ![128]⟩
abbrev S128x8192 : Shape := ⟨2, ![128, 8192]⟩
abbrev S128x8192x1 : Shape := ⟨3, ![128, 8192, 1]⟩
abbrev S128x1x128 : Shape := ⟨3, ![128, 1, 128]⟩
abbrev S128x8192x128 : Shape := ⟨3, ![128, 8192, 128]⟩
abbrev S_ : Shape := ⟨0, ![]⟩
abbrev S1x1x128 : Shape := ⟨3, ![1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x8192, .f32⟩
  | .hbm, ⟨6, _⟩ => ⟨S128x8192x1, .f32⟩
  | .hbm, ⟨7, _⟩ => ⟨S128x1x128, .f32⟩
  | .hbm, ⟨8, _⟩ => ⟨S128x8192x128, .f32⟩
  | .hbm, ⟨9, _⟩ => ⟨S128x8192x128, .f32⟩
  | .hbm, ⟨10, _⟩ => ⟨S128x8192x128, .f32⟩
  | .hbm, ⟨11, _⟩ => ⟨S128x1x128, .f32⟩
  | .hbm, ⟨12, _⟩ => ⟨S128x8192x128, .f32⟩
  | .hbm, ⟨13, _⟩ => ⟨S128x8192x128, .f32⟩
  | .hbm, ⟨14, _⟩ => ⟨S_, .f32⟩
  | .hbm, ⟨15, _⟩ => ⟨S128x8192, .f32⟩
  | .hbm, ⟨16, _⟩ => ⟨S128x8192x1, .f32⟩
  | .hbm, ⟨17, _⟩ => ⟨S_, .f32⟩
  | .hbm, ⟨18, _⟩ => ⟨S128x8192x1, .f32⟩
  | .hbm, ⟨19, _⟩ => ⟨S128x8192x1, .f32⟩
  | .hbm, ⟨20, _⟩ => ⟨S128x8192x128, .f32⟩
  | .hbm, ⟨21, _⟩ => ⟨S128x8192x128, .f32⟩
  | .hbm, ⟨22, _⟩ => ⟨S128x8192x128, .f32⟩
  | .hbm, ⟨23, _⟩ => ⟨S_, .f32⟩
  | .hbm, ⟨24, _⟩ => ⟨S128x8192, .f32⟩
  | .hbm, ⟨25, _⟩ => ⟨S128x8192x1, .f32⟩
  | .hbm, ⟨26, _⟩ => ⟨S_, .f32⟩
  | .hbm, ⟨27, _⟩ => ⟨S128x8192x1, .f32⟩
  | .hbm, ⟨28, _⟩ => ⟨S128x8192x1, .f32⟩
  | .hbm, ⟨29, _⟩ => ⟨S128x8192x128, .f32⟩
  | .hbm, ⟨30, _⟩ => ⟨S128x8192x128, .f32⟩
  | .hbm, ⟨31, _⟩ => ⟨S_, .f32⟩
  | .hbm, ⟨32, _⟩ => ⟨S128x8192x1, .f32⟩
  | .hbm, ⟨33, _⟩ => ⟨S128x8192x1, .f32⟩
  | .hbm, ⟨34, _⟩ => ⟨S128x8192x1, .f32⟩
  | .hbm, ⟨35, _⟩ => ⟨S128x8192x128, .f32⟩
  | .hbm, ⟨36, _⟩ => ⟨S128x8192x128, .f32⟩
  | .hbm, ⟨37, _⟩ => ⟨S1x1x128, .f32⟩
  | .hbm, ⟨38, _⟩ => ⟨S128x8192x128, .f32⟩
  | .hbm, ⟨39, _⟩ => ⟨S128x8192x128, .f32⟩
  | .hbm, ⟨40, _⟩ => ⟨S1x1x128, .f32⟩
  | .hbm, ⟨41, _⟩ => ⟨S128x8192x128, .f32⟩
  | .hbm, ⟨42, _⟩ => ⟨S128x8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S128x8192_S128x8192x1_0_1 : S128x8192.BroadcastsInDim S128x8192x1 (![0, 1] : Fin 2 → Fin S128x8192x1.rank)
  bcast_S128x128_S128x1x128_0_2 : S128x128.BroadcastsInDim S128x1x128 (![0, 2] : Fin 2 → Fin S128x1x128.rank)
  bcast_S128x8192x1_S128x8192x128_0_1_2 : S128x8192x1.BroadcastsInDim S128x8192x128 (![0, 1, 2] : Fin 3 → Fin S128x8192x128.rank)
  bcast_S128x1x128_S128x8192x128_0_1_2 : S128x1x128.BroadcastsInDim S128x8192x128 (![0, 1, 2] : Fin 3 → Fin S128x8192x128.rank)
  reducesTo_S128x8192x128_S128x8192_d2 : S128x8192x128.ReducesTo [2] S128x8192
  h_S_ : 0 < S_.numel
  bcast_S_S128x8192x1 : S_.BroadcastsInDim S128x8192x1 (![] : Fin 0 → Fin S128x8192x1.rank)
  bcast_S128_S1x1x128_2 : S128.BroadcastsInDim S1x1x128 (![2] : Fin 1 → Fin S1x1x128.rank)
  bcast_S1x1x128_S128x8192x128_0_1_2 : S1x1x128.BroadcastsInDim S128x8192x128 (![0, 1, 2] : Fin 3 → Fin S128x8192x128.rank)

variable [Facts₀]

class Facts : Prop extends Facts₀ where

variable [Facts]
-- ==== Proof.LayerNormLaw.lean ====
/-
  Layer normalisation of an affine family, two ways, on the extended reals.

  For one feature row and one sample the normalised vector is e_k = x * w_k + b_k (k over the model axis). Its mean
  over k is x * mean(w) + mean(b), so the centred vector is x * wc_k + bc_k with wc = w - mean(w), bc = b - mean(b), and
  its variance is the quadratic x^2 * mean(wc^2) + 2 * x * mean(wc * bc) + mean(bc^2) in x. Hence

      (e_d - mean e) * rsqrt(var e + eps) * g + beta
        = (x * r) * (wc_d * g) + r * (bc_d * g) + beta,     r = rsqrt(x^2 * mww + 2 * x * mwb + mbb + eps).

  This is an identity of REAL numbers (distributivity is used throughout, and the variance is nonnegative so that the
  reciprocal square root of variance + eps is a real number); it is stated on the extended reals over coercions,
  with the divisions and the reciprocal square root the extended-real ones.
-/
import Idealize.ShloMosaic.PureOps.Ideal
import Mathlib.Algebra.BigOperators.Ring.Finset
import Mathlib.Algebra.Order.BigOperators.Group.Finset
import Mathlib.Algebra.Order.BigOperators.Ring.Finset
import Mathlib.Tactic.Ring
import Mathlib.Tactic.FieldSimp
import Mathlib.Tactic.Linarith

noncomputable section

namespace Cert.LayerNormLaw

open Idealize.ShloMosaic

variable {ι : Type} [Fintype ι]

/-- The reference's value at one entry: normalise e_k = x * w_k + b_k over k, scale, shift. -/
def refPt (N ε x g β : EReal) (w b : ι → EReal) (d : ι) : EReal :=
  (((x * w d + b d) - Ideal.div (0 + ∑ k, (x * w k + b k)) N)
      * Ideal.rsqrt (Ideal.div (0 + ∑ k, ((x * w k + b k) - Ideal.div (0 + ∑ j, (x * w j + b j)) N)
          * ((x * w k + b k) - Ideal.div (0 + ∑ j, (x * w j + b j)) N)) N + ε)) * g + β

/-- The mean of a row. -/
def rowMean (N : EReal) (w : ι → EReal) : EReal := Ideal.div (0 + ∑ k, w k) N

/-- The mean over the row of the product of two centred rows. -/
def rowMoment (N : EReal) (u v : ι → EReal) : EReal :=
  Ideal.div (0 + ∑ k, (u k - rowMean N u) * (v k - rowMean N v)) N

/-- The kernel's value at one entry from the scaled centred rows and the three moments. -/
def kerCore (ε two x wg bg mww mwb mbb β : EReal) : EReal :=
  ((x * Ideal.rsqrt ((((x * x) * mww + (two * x) * mwb) + mbb) + ε)) * wg
      + Ideal.rsqrt ((((x * x) * mww + (two * x) * mwb) + mbb) + ε) * bg) + β

theorem coe_sum (f : ι → ℝ) : ((∑ k, f k : ℝ) : EReal) = ∑ k, (f k : EReal) := by
  classical
  induction (Finset.univ : Finset ι) using Finset.induction_on with
  | empty => simp
  | insert a S ha ih => rw [Finset.sum_insert ha, Finset.sum_insert ha, EReal.coe_add, ih]

theorem div_real (a N : ℝ) (hN : N ≠ 0) : Ideal.div (a : EReal) (N : EReal) = ((a / N : ℝ) : EReal) := by
  rw [Ideal.div_coe hN, ← EReal.coe_mul, mul_one_div]

theorem rsqrt_real (v : ℝ) (hv : 0 < v) : Ideal.rsqrt (v : EReal) = (((Real.sqrt v)⁻¹ : ℝ) : EReal) := by
  rw [Ideal.rsqrt_coe, if_neg (not_lt.mpr hv.le), if_neg hv.ne']

theorem zero_add_sum (f : ι → ℝ) : (0 : EReal) + ∑ k, (f k : EReal) = ((∑ k, f k : ℝ) : EReal) := by
  rw [zero_add, coe_sum]

/-- The two forms agree for real data, a positive count and a positive epsilon. -/
theorem refPt_eq_kerCore (N ε : ℝ) (hN : 0 < N) (hε : 0 < ε) (x g β : ℝ) (w b : ι → ℝ) (d : ι) :
    refPt (N : EReal) (ε : EReal) (x : EReal) (g : EReal) (β : EReal) (fun k => (w k : EReal)) (fun k => (b k : EReal)) d
      = kerCore (ε : EReal) ((2 : ℝ) : EReal) (x : EReal)
          (((w d : EReal) - rowMean (N : EReal) (fun k => (w k : EReal))) * (g : EReal))
          (((b d : EReal) - rowMean (N : EReal) (fun k => (b k : EReal))) * (g : EReal))
          (rowMoment (N : EReal) (fun k => (w k : EReal)) (fun k => (w k : EReal)))
          (rowMoment (N : EReal) (fun k => (w k : EReal)) (fun k => (b k : EReal)))
          (rowMoment (N : EReal) (fun k => (b k : EReal)) (fun k => (b k : EReal))) (β : EReal) := by
  have hN' : N ≠ 0 := hN.ne'
  -- the real quantities
  set mW : ℝ := (∑ k, w k) / N with hmW
  set mB : ℝ := (∑ k, b k) / N with hmB
  set mww : ℝ := (∑ k, (w k - mW) * (w k - mW)) / N with hmww
  set mwb : ℝ := (∑ k, (w k - mW) * (b k - mB)) / N with hmwb
  set mbb : ℝ := (∑ k, (b k - mB) * (b k - mB)) / N with hmbb
  set mE : ℝ := (∑ k, (x * w k + b k)) / N with hmE
  set var : ℝ := (∑ k, ((x * w k + b k) - mE) * ((x * w k + b k) - mE)) / N with hvar
  have hmean : mE = x * mW + mB := by
    rw [hmE, hmW, hmB, Finset.sum_add_distrib, ← Finset.mul_sum]; field_simp
  have hcen : ∀ k, (x * w k + b k) - mE = x * (w k - mW) + (b k - mB) := fun k => by rw [hmean]; ring
  have hvar' : var = (x * x) * mww + (2 * x) * mwb + mbb := by
    rw [hvar, hmww, hmwb, hmbb]
    have : ∀ k, ((x * w k + b k) - mE) * ((x * w k + b k) - mE)
        = (x * x) * ((w k - mW) * (w k - mW)) + (2 * x) * ((w k - mW) * (b k - mB)) + (b k - mB) * (b k - mB) :=
      fun k => by rw [hcen]; ring
    simp only [this, Finset.sum_add_distrib, ← Finset.mul_sum]
    field_simp
  have hvar0 : 0 ≤ var := by
    rw [hvar]; exact div_nonneg (Finset.sum_nonneg fun k _ => mul_self_nonneg _) hN.le
  have hpos : 0 < var + ε := by linarith
  -- the extended-real terms are coercions of the real ones
  have eW : rowMean (N : EReal) (fun k => (w k : EReal)) = (mW : EReal) := by
    unfold rowMean; rw [zero_add_sum, div_real _ _ hN']
  have eB : rowMean (N : EReal) (fun k => (b k : EReal)) = (mB : EReal) := by
    unfold rowMean; rw [zero_add_sum, div_real _ _ hN']
  have eww : rowMoment (N : EReal) (fun k => (w k : EReal)) (fun k => (w k : EReal)) = (mww : EReal) := by
    unfold rowMoment; rw [eW]; simp only [← EReal.coe_sub, ← EReal.coe_mul]; rw [zero_add_sum, div_real _ _ hN']
  have ewb : rowMoment (N : EReal) (fun k => (w k : EReal)) (fun k => (b k : EReal)) = (mwb : EReal) := by
    unfold rowMoment; rw [eW, eB]; simp only [← EReal.coe_sub, ← EReal.coe_mul]; rw [zero_add_sum, div_real _ _ hN']
  have ebb : rowMoment (N : EReal) (fun k => (b k : EReal)) (fun k => (b k : EReal)) = (mbb : EReal) := by
    unfold rowMoment; rw [eB]; simp only [← EReal.coe_sub, ← EReal.coe_mul]; rw [zero_add_sum, div_real _ _ hN']
  have eE : Ideal.div (0 + ∑ k, ((x : EReal) * (w k : EReal) + (b k : EReal))) (N : EReal) = (mE : EReal) := by
    simp only [← EReal.coe_mul, ← EReal.coe_add]; rw [zero_add_sum, div_real _ _ hN']
  unfold refPt kerCore
  rw [eW, eB, eww, ewb, ebb, eE]
  simp only [← EReal.coe_mul, ← EReal.coe_add, ← EReal.coe_sub]
  rw [zero_add_sum, div_real _ _ hN']
  simp only [← EReal.coe_mul, ← EReal.coe_add, ← EReal.coe_sub]
  rw [← hvar, ← hvar', rsqrt_real _ hpos]
  simp only [← EReal.coe_mul, ← EReal.coe_add, ← EReal.coe_sub]
  refine congrArg _ ?_
  rw [hcen d]; ring

end Cert.LayerNormLaw

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibRank3Layout.lean ====
/-
  Rank-3 layout operations read at coordinates: what a body that spreads two matrices and a vector over a
  three-axis block, and flattens that block's two leading axes into the rows of a matrix product, needs.

  * an [a, c] matrix given a unit middle axis, [a, 1, c], and spread along it to [a, b, c]: entry (i, j, k) is the
    matrix's (i, k);
  * a [b, c] matrix given a unit leading axis, [1, b, c] (the library's `shapeCast_ab_1ab_apply`), and spread along it
    to [a, b, c]: entry (i, j, k) is the matrix's (j, k);
  * a vector [c] given two unit leading axes, [1, 1, c], and spread to [a, b, c]: entry (i, j, k) is the vector's k;
  * an [a, b, c] block read as the matrix [a·b, c] and back: row `i·b + j` of the matrix is the block's (i, j).

  All are general in the extents; the flattened row count is any `m` with the row given as `p = i·b + j`.
-/
import Idealize.ShloMosaic.Lib.ValueIdx
import Idealize.ShloMosaic.Lib.Pipeline.Value

namespace Idealize.ShloMosaic.ValueRank3

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A vector `[c]` cast to `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, c]` block cast to a matrix `[m, c]` reads, at row `p = i·b + j` and column `k`, the block at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (p : Fin m)
    (hp : p.val = i.val * b + j.val) :
    shapeCast ⟨2, ![m, c]⟩ x h (ix2 p k) = x (ix3 i j k) :=
  shapeCast_apply x h _ _ (by
    rw [Shape.rowMajor_val_three, Shape.rowMajor_val_two]
    show (i.val * b + j.val) * c + k.val = p.val * c + k.val
    rw [hp])

/-- A matrix `[m, c]` cast to an `[a, b, c]` block reads, at `(i, j, k)`, the matrix at row `p = i·b + j`, column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (p : Fin m)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueRank3
-- ==== Proof.LibRank3Columns.lean ====
/-
  Rank-3 layout operations that put a matrix on the two LEADING axes of a three-axis block, read at coordinates.

  * an [a, b] matrix given a unit trailing axis, [a, b, 1]: entry (i, j, u) is the matrix's (i, j);
  * an [a, b, 1] array spread along its trailing axis to [a, b, c]: entry (i, j, k) is the operand's (i, j, 0);
  * a row [1, c] given a second unit leading axis, [1, 1, c]: entry (u, v, k) is the row's (0, k).

  All are general in the extents. They are the companions, for the trailing axis, of the forms that insert a unit
  middle or leading axis.
-/
import Idealize.ShloMosaic.Lib.ValueIdx
import Idealize.ShloMosaic.Lib.Pipeline.Value

namespace Idealize.ShloMosaic.ValueRank3Columns

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A row `[1, c]` cast to `[1, 1, c]` reads, at `(u, v, k)`, the row at `(0, k)`. -/
theorem shapeCast_1c_11c_apply {c : ℕ} (x : (⟨2, ![1, c]⟩ : Shape).Idx → α)
    (h : (⟨2, ![1, c]⟩ : Shape).ShapeCasts ⟨3, ![1, 1, c]⟩) (u v : Fin 1) (k : Fin c) :
    shapeCast ⟨3, ![1, 1, c]⟩ x h (ix3 u v k) = x (ix2 (0 : Fin 1) k) :=
  shapeCast_apply x h _ _ (by
    have hu : u.val = 0 := by omega
    have hv : v.val = 0 := by omega
    rw [Shape.rowMajor_val_three, Shape.rowMajor_val_two]
    show (0 : Fin 1).val * c + k.val = (u.val * 1 + v.val) * c + k.val
    rw [hu, hv]; simp)

end Idealize.ShloMosaic.ValueRank3Columns
-- ==== Proof.BodyPoint.lean ====
/-
  The kernel body's arithmetic at one entry of a chunk.

  One trip of the body works on 32 feature rows: from the rows' samples x (32 x 128), the scaled centred weights and
  biases wg, bg (32 x 128 over the model axis), the three per-row moments (32 x 1 columns) and the shift row beta
  (1 x 128) it forms r = rsqrt(x * x * mww + 2 * x * mwb + mbb + eps) per (row, sample), spreads x * r and r along the model
  axis and wg, bg along the sample axis, and stores (x * r) * wg + r * bg + beta. At entry (a, n, d) of the chunk this is
  the scalar expression `kerCore` of the seven operands' entries (a, n), (a, d), (a, 0) and (0, d).
-/
import proofs.«106021_j41068477284866_2_alg».proof.Proof.Gen.KernelIdeal.Skeleton
import proofs.«106021_j41068477284866_2_alg».proof.Proof.LayerNormLaw
import proofs.«106021_j41068477284866_2_alg».proof.Proof.LibKeepdims
import proofs.«106021_j41068477284866_2_alg».proof.Proof.LibRank3Layout
import proofs.«106021_j41068477284866_2_alg».proof.Proof.LibRank3Columns
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx
open Idealize.ShloMosaic.ValueKeepdims Idealize.ShloMosaic.ValueRank3 Idealize.ShloMosaic.ValueRank3Columns
open Cert.LayerNormLaw

/-- The kernel's epsilon, as its f32 word. -/
abbrev epsW : EReal := Ideal.ofBits .f32 0x3727C5AC#32
/-- The kernel's factor two, as its f32 word. -/
abbrev twoW : EReal := Ideal.ofBits .f32 0x40000000#32

/-- The vector reciprocal square root reads entrywise. -/
theorem rsqrt_apply {s : Shape} {φ : FTy} (v : FVec Ideal s φ) (i : s.Idx) : rsqrt v i = Ideal.rsqrt (v i) := rfl

/-- One trip's stored value at entry (a, n, d) of its chunk. -/
theorem body_point (v9 v12 v15 : Vec Ideal S32x128 .f32) (v18 v21 v24 : Vec Ideal S32x1 .f32) (v0 : Vec Ideal S1x128 .f32)
    (a : Fin 32) (n d : Fin 128) :
    k0_pay2 (F := Ideal) (k0_pay3 v9 v12 v15 v18 v21 v24) (k0_pay4 (k0_pay1 v0)) (ix3 a n d)
      = kerCore epsW twoW (v9 (ix2 a n)) (v12 (ix2 a d)) (v15 (ix2 a d)) (v18 (ix2 a (0 : Fin 1)))
          (v21 (ix2 a (0 : Fin 1))) (v24 (ix2 a (0 : Fin 1))) (v0 (ix2 (0 : Fin 1) d)) := by
  unfold k0_pay2 k0_pay3 k0_pay4 k0_pay1 kerCore
  simp only [shapeCast_self]
  rw [addf_apply, addf_apply, mulf_apply, mulf_apply,
    broadcastTo_ab1_abc_apply, broadcastTo_ab1_abc_apply, broadcastTo_a1c_abc_apply, broadcastTo_a1c_abc_apply,
    broadcastTo_11c_abc_apply,
    shapeCast_ab_ab1_apply, shapeCast_ab_ab1_apply, shapeCast_ac_a1c_apply, shapeCast_ac_a1c_apply,
    shapeCast_1c_11c_apply, mulf_apply, rsqrt_apply, addf_apply, addf_apply, addf_apply, mulf_apply, mulf_apply,
    mulf_apply, mulf_apply, broadcastTo_a1_ab_apply, broadcastTo_a1_ab_apply, broadcastTo_a1_ab_apply,
    broadcast_apply, broadcast_apply]
  rfl

end Cert.KernelIdeal.Body

end
-- ==== Proof.LibRectLoad.lean ====
/-
  A load through a unit-stride rectangle, read at an index: entry y of the loaded box is the array's entry at
  offset + y, coordinate by coordinate.
-/
import Idealize.ShloMosaic.Lib.Pipeline.FrameBody

noncomputable section

namespace Idealize.ShloMosaic.View

/-- Entry `y` of a box loaded through the unit-stride rectangle at offsets `off` is the array at `k`, where `k` is
    `off + y` on every axis. -/
theorem ld_unit_at {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  show off a + 1 * (y a).val = (k a).val
  rw [hk a, Nat.one_mul]

end Idealize.ShloMosaic.View

end
-- ==== Proof.BlockValue.lean ====
/-
  What one grid point leaves in the output's staging buffer, as one function of the point's input blocks.

  The body fills the 128 x 128 x 128 staging buffer in four trips; trip k stores rows 32k .. 32k + 31 (all samples,
  all model coordinates), computed from rows 32k .. 32k + 31 of the five row-indexed operands and from the shift row. So
  every entry (f, n, d) of the buffer is the same scalar expression of the operands' entries (f, n), (f, d), (f, 0),
  (0, d): the four stored chunks are the restrictions of ONE function of the buffer index, and the chunks cover the buffer.
-/
import proofs.«106021_j41068477284866_2_alg».proof.Proof.Gen.KernelIdeal.Frame
import proofs.«106021_j41068477284866_2_alg».proof.Proof.BodyPoint
import proofs.«106021_j41068477284866_2_alg».proof.Proof.LibRectLoad
import Idealize.ShloMosaic.Lib.Pipeline.Value

set_option maxRecDepth 16384

noncomputable section

namespace Cert.KernelIdeal.Block

open Cert.KernelIdeal Cert.KernelIdeal.Gen Cert.KernelIdeal.Body Cert.LayerNormLaw
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- Entry (f, n, d) of the staging buffer after the body, from the point's seven input blocks. -/
def blockFn (x0 x1 x2 : Vec Ideal S128x128 .f32) (x3 x4 x5 : Vec Ideal S128x1 .f32) (x6 : Vec Ideal S1x128 .f32) : Vec Ideal S128x128x128 .f32 :=
  fun y => kerCore epsW twoW (x0 (ix2 (y 0) (y 1))) (x1 (ix2 (y 0) (y 2))) (x2 (ix2 (y 0) (y 2)))
    (x3 (ix2 (y 0) (0 : Fin 1))) (x4 (ix2 (y 0) (0 : Fin 1))) (x5 (ix2 (y 0) (0 : Fin 1))) (x6 (ix2 (0 : Fin 1) (y 2)))

/-- Trip k works at row offset 32k: of the 128 x 128 operands, -/
theorem off1_eq : ∀ k : Fin k0_t1_loop.trips, k0_off1 k = ![32 * k.val, 0] := by decide +kernel
/-- of the 128 x 1 columns, -/
theorem off2_eq : ∀ k : Fin k0_t1_loop.trips, k0_off2 k = ![32 * k.val, 0] := by decide +kernel
/-- and of the output buffer. -/
theorem off3_eq : ∀ k : Fin k0_t1_loop.trips, k0_off3 k = ![32 * k.val, 0, 0] := by decide +kernel

/-- Trip k stores one chunk: the body's arithmetic of the rows it loaded. -/
theorem trip_piece (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x128 .f32) (harg7 : arg7.IsWhole) (arg8 : Memref sig .tc .vmem S128x128x128 .f32) (harg8 : arg8.IsWhole) (v0 : Vec Ideal S1x128 .f32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (k : Fin k0_t1_loop.trips) :
    tripL_k0_t1 (F := Ideal) Variants.none c none i arg1 harg1 arg2 harg2 arg3 harg3 arg4 harg4 arg5 harg5 arg6 harg6 arg7 harg7 arg8 harg8 v0 X1 X2 X3 X4 X5 X6 k
      = [⟨Rect.unit (s := S128x128x128) (k0_off3 k) S32x128x128.size (k0_off3_inb k),
          k0_pay2 (k0_pay3 (View.readAt (Elt Ideal) arg1.view (Rect.unit (s := S128x128) (k0_off1 k) S32x128.size (k0_off1_inb k)).toLoadRect X1)
              (View.readAt (Elt Ideal) arg2.view (Rect.unit (s := S128x128) (k0_off1 k) S32x128.size (k0_off1_inb k)).toLoadRect X2)
              (View.readAt (Elt Ideal) arg3.view (Rect.unit (s := S128x128) (k0_off1 k) S32x128.size (k0_off1_inb k)).toLoadRect X3)
              (View.readAt (Elt Ideal) arg4.view (Rect.unit (s := S128x1) (k0_off2 k) S32x1.size (k0_off2_inb k)).toLoadRect X4)
              (View.readAt (Elt Ideal) arg5.view (Rect.unit (s := S128x1) (k0_off2 k) S32x1.size (k0_off2_inb k)).toLoadRect X5)
              (View.readAt (Elt Ideal) arg6.view (Rect.unit (s := S128x1) (k0_off2 k) S32x1.size (k0_off2_inb k)).toLoadRect X6))
            (k0_pay4 (k0_pay1 v0))⟩] := by
  unfold tripL_k0_t1 trip_k0_t1
  dsimp only
  sl_unfold_words
  rfl

/-- Every chunk stored before trip n was stored by some trip. -/
theorem mem_trips (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x128 .f32) (harg7 : arg7.IsWhole) (arg8 : Memref sig .tc .vmem S128x128x128 .f32) (harg8 : arg8.IsWhole) (v0 : Vec Ideal S1x128 .f32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) :
    ∀ (n : ℕ) (p : View.Piece (Elt Ideal) S128x128x128 .f32),
      p ∈ pb_k0_t1 (F := Ideal) Variants.none c none i arg1 harg1 arg2 harg2 arg3 harg3 arg4 harg4 arg5 harg5 arg6 harg6 arg7 harg7 arg8 harg8 v0 X1 X2 X3 X4 X5 X6 n →
      ∃ k : Fin k0_t1_loop.trips, p ∈ tripL_k0_t1 (F := Ideal) Variants.none c none i arg1 harg1 arg2 harg2 arg3 harg3 arg4 harg4 arg5 harg5 arg6 harg6 arg7 harg7 arg8 harg8 v0 X1 X2 X3 X4 X5 X6 k
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · exact ⟨⟨n, hn⟩, h⟩
      · exact mem_trips c i arg1 harg1 arg2 harg2 arg3 harg3 arg4 harg4 arg5 harg5 arg6 harg6 arg7 harg7 arg8 harg8 v0 X1 X2 X3 X4 X5 X6 n p h
    · exact mem_trips c i arg1 harg1 arg2 harg2 arg3 harg3 arg4 harg4 arg5 harg5 arg6 harg6 arg7 harg7 arg8 harg8 v0 X1 X2 X3 X4 X5 X6 n p h

/-- The body's chunks are the body's whole list of stores. -/
theorem run_pieces (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x128 .f32) (harg7 : arg7.IsWhole) (arg8 : Memref sig .tc .vmem S128x128x128 .f32) (harg8 : arg8.IsWhole) (x0 x1 x2 : Vec Ideal S128x128 .f32) (x3 x4 x5 : Vec Ideal S128x1 .f32) (x6 : Vec Ideal S1x128 .f32) :
    (kernelRun0_A (F := Ideal) c i arg1 harg1 arg2 harg2 arg3 harg3 arg4 harg4 arg5 harg5 arg6 harg6 arg7 harg7 arg8 harg8 x0 x1 x2 x3 x4 x5 x6).1
      = pb_k0_t1 (F := Ideal) Variants.none c none i arg1 harg1 arg2 harg2 arg3 harg3 arg4 harg4 arg5 harg5 arg6 harg6 arg7 harg7 arg8 harg8
          (View.readAt (Elt Ideal) arg7.view (Rect.unit (s := S1x128) ![0, 0] S1x128.size inb_S1x128_S1x128_0_0).toLoadRect (harg7.unread x6))
          (harg1.unread x0) (harg2.unread x1) (harg3.unread x2) (harg4.unread x3) (harg5.unread x4) (harg6.unread x5)
          (Scf.trips (0#32) (Scalar.addi 0#32 4#32) 1#32) := by
  unfold kernelRun0_A
  dsimp only

/-- A row block of a 128 x 128 operand loaded at trip k, read at (a, j): the operand's row 32k + a. -/
theorem load_rows (arg : Memref sig .tc .vmem S128x128 .f32) (harg : arg.IsWhole) (x : Vec Ideal S128x128 .f32)
    (k : Fin k0_t1_loop.trips) (a : Fin 32) (j : Fin 128) (f : Fin 128) (hf : f.val = 32 * k.val + a.val) :
    View.readAt (Elt Ideal) arg.view (Rect.unit (s := S128x128) (k0_off1 k) S32x128.size (k0_off1_inb k)).toLoadRect (harg.unread x) (ix2 a j) = x (ix2 f j) := by
  rw [View.readAt_eq_ld, harg.read_unread]
  refine View.ld_unit_at x _ _ _ _ _ fun ax => ?_
  match ax with
  | ⟨0, _⟩ => show f.val = k0_off1 k 0 + a.val; rw [congrFun (off1_eq k) 0]; exact hf
  | ⟨1, _⟩ => show j.val = k0_off1 k 1 + j.val; rw [congrFun (off1_eq k) 1]; exact (Nat.zero_add _).symm

/-- A row block of a 128 x 1 column loaded at trip k, read at (a, 0): the column's row 32k + a. -/
theorem load_col (arg : Memref sig .tc .vmem S128x1 .f32) (harg : arg.IsWhole) (x : Vec Ideal S128x1 .f32)
    (k : Fin k0_t1_loop.trips) (a : Fin 32) (f : Fin 128) (hf : f.val = 32 * k.val + a.val) :
    View.readAt (Elt Ideal) arg.view (Rect.unit (s := S128x1) (k0_off2 k) S32x1.size (k0_off2_inb k)).toLoadRect (harg.unread x) (ix2 a (0 : Fin 1)) = x (ix2 f (0 : Fin 1)) := by
  rw [View.readAt_eq_ld, harg.read_unread]
  refine View.ld_unit_at x _ _ _ _ _ fun ax => ?_
  match ax with
  | ⟨0, _⟩ => show f.val = k0_off2 k 0 + a.val; rw [congrFun (off2_eq k) 0]; exact hf
  | ⟨1, _⟩ => show (0 : ℕ) = k0_off2 k 1 + 0; rw [congrFun (off2_eq k) 1]; rfl

/-- The shift row, loaded whole. -/
theorem load_shift (arg : Memref sig .tc .vmem S1x128 .f32) (harg : arg.IsWhole) (x : Vec Ideal S1x128 .f32) :
    View.readAt (Elt Ideal) arg.view (Rect.unit (s := S1x128) ![0, 0] S1x128.size inb_S1x128_S1x128_0_0).toLoadRect (harg.unread x) = x := by
  rw [View.readAt_eq_ld, harg.read_unread]
  exact View.ld_unit_zero (S := S1x128) (funext fun a => by fin_cases a <;> rfl) _ x

/-- THE BUFFER AFTER THE BODY is `blockFn` of the input blocks: each of the four chunks restricts it, and they cover. -/
theorem out_eq (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x128 .f32) (harg7 : arg7.IsWhole) (arg8 : Memref sig .tc .vmem S128x128x128 .f32) (harg8 : arg8.IsWhole) (x0 x1 x2 : Vec Ideal S128x128 .f32) (x3 x4 x5 : Vec Ideal S128x1 .f32) (x6 : Vec Ideal S1x128 .f32) :
    out0_A_7 (F := Ideal) c i arg1 harg1 arg2 harg2 arg3 harg3 arg4 harg4 arg5 harg5 arg6 harg6 arg7 harg7 arg8 harg8 x0 x1 x2 x3 x4 x5 x6 = blockFn x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  funext y
  refine View.canon_apply_of_pieces (blockFn x0 x1 x2 x3 x4 x5 x6) _ ?_ y (cover0_A_7 c i arg1 harg1 arg2 harg2 arg3 harg3 arg4 harg4 arg5 harg5 arg6 harg6 arg7 harg7 arg8 harg8 x0 x1 x2 x3 x4 x5 x6 y)
  intro p hp x
  rw [run_pieces] at hp
  obtain ⟨k, hk⟩ := mem_trips c i arg1 harg1 arg2 harg2 arg3 harg3 arg4 harg4 arg5 harg5 arg6 harg6 arg7 harg7 arg8 harg8 _ _ _ _ _ _ _ _ p hp
  rw [trip_piece] at hk
  obtain rfl := List.mem_singleton.mp hk
  obtain ⟨a, n, d, rfl⟩ : ∃ (a : Fin 32) (n d : Fin 128), x = ix3 a n d := ⟨x 0, x 1, x 2, eq_ix3 x⟩
  show k0_pay2 _ _ (ix3 a n d) = _
  rw [body_point]
  have h0 : ((Rect.unit (s := S128x128x128) (k0_off3 k) S32x128x128.size (k0_off3_inb k)).emb (ix3 a n d) 0).val = 32 * k.val + a.val := by
    show (k0_off3 k) 0 + 1 * a.val = _
    rw [congrFun (off3_eq k) 0, Nat.one_mul]; rfl
  have h1 : (Rect.unit (s := S128x128x128) (k0_off3 k) S32x128x128.size (k0_off3_inb k)).emb (ix3 a n d) 1 = n := by
    apply Fin.ext; show (k0_off3 k) 1 + 1 * n.val = _
    rw [congrFun (off3_eq k) 1, Nat.one_mul]; exact Nat.zero_add _
  have h2 : (Rect.unit (s := S128x128x128) (k0_off3 k) S32x128x128.size (k0_off3_inb k)).emb (ix3 a n d) 2 = d := by
    apply Fin.ext; show (k0_off3 k) 2 + 1 * d.val = _
    rw [congrFun (off3_eq k) 2, Nat.one_mul]; exact Nat.zero_add _
  unfold blockFn
  rw [h1, h2, load_rows arg1 harg1 x0 k a n _ h0, load_rows arg2 harg2 x1 k a d _ h0, load_rows arg3 harg3 x2 k a d _ h0,
    load_col arg4 harg4 x3 k a _ h0, load_col arg5 harg5 x4 k a _ h0, load_col arg6 harg6 x5 k a _ h0, load_shift]

end Cert.KernelIdeal.Block

end
-- ==== Proof.KernelValue.lean ====
/-
  The kernel's output array after the run, as one function of the arrays the region finds.

  Grid point t works on samples 128t .. 128t + 127: it fetches columns 128t .. of the transposed input (128 features
  by 8192 samples), the whole of the six small operands, and writes back the 128 x 128 x 128 block of the output at
  sample offset 128t. What it leaves in the staging buffer is `blockFn` of its input blocks, whose entry (f, n, d) only
  reads entries (f, n), (f, d), (f, 0), (0, d) of them; so the block written back is the restriction to samples
  128t .. 128t + 127 of ONE function `wholeFn` of the seven arrays, and the 64 blocks tile the output.
-/
import proofs.«106021_j41068477284866_2_alg».proof.Proof.Gen.KernelIdeal.Value
import proofs.«106021_j41068477284866_2_alg».proof.Proof.BlockValue

set_option maxRecDepth 16384

noncomputable section

namespace Cert.KernelIdeal.Whole

open Cert.KernelIdeal Cert.KernelIdeal.Gen Cert.KernelIdeal.Body Cert.KernelIdeal.Block Cert.LayerNormLaw
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Entry (f, s, d) of the output from the transposed input (f, s), the scaled centred rows (f, d), the three moment
    columns (f, 0) and the shift row (0, d). -/
def wholeFn (A0 : S128x8192.Idx → EReal) (A1 A2 : S128x128.Idx → EReal) (A3 A4 A5 : S128x1.Idx → EReal)
    (A6 : S1x128.Idx → EReal) : S128x8192x128.Idx → EReal :=
  fun i => kerCore epsW twoW (A0 (ix2 (i 0) (i 1))) (A1 (ix2 (i 0) (i 2))) (A2 (ix2 (i 0) (i 2)))
    (A3 (ix2 (i 0) (0 : Fin 1))) (A4 (ix2 (i 0) (0 : Fin 1))) (A5 (ix2 (i 0) (0 : Fin 1))) (A6 (ix2 (0 : Fin 1) (i 2)))

/-- Equal operands give equal values. -/
theorem kerCore_congr {e t a b c d f g h a' b' c' d' f' g' h' : EReal} (ha : a = a') (hb : b = b') (hc : c = c')
    (hd : d = d') (hf : f = f') (hg : g = g') (hh : h = h') :
    kerCore e t a b c d f g h = kerCore e t a' b' c' d' f' g' h' := by
  rw [ha, hb, hc, hd, hf, hg, hh]

/-- The printed index maps over the grid: the transposed input moves with the output along the sample axis; every
    other block index is zero. -/
theorem idx_facts : ∀ t : Fin cfg0.N,
    win0_0.index t (0 : Fin 2) = 0 ∧ win0_0.index t (1 : Fin 2) = win0_7.index t (1 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (2 : Fin 3) = 0 ∧ win0_7.index t (1 : Fin 3) ≤ 63 :=
  (by decide +kernel : ∀ t : Fin grid0.N, _)

/-- Every sample block is some point's. -/
theorem idx_onto : ∀ q : Fin 64, ∃ t : Fin cfg0.N, win0_7.index t = ![0, q.val, 0] :=
  (by decide +kernel : ∀ q : Fin 64, ∃ t : Fin grid0.N, win0_7.index t = ![0, q.val, 0])

/-- The body's function of point t's blocks of ANY seven arrays is block t of `wholeFn` of those arrays. -/
theorem block_of_whole (A0 : S128x8192.Idx → EReal) (A1 A2 : S128x128.Idx → EReal) (A3 A4 A5 : S128x1.Idx → EReal)
    (A6 : S1x128.Idx → EReal) (t : Fin cfg0.N) :
    (cfg0.win 7).cut (grid0.coords t) (blockFn (((cfg0.win 0).blk t).view.read (Elt Ideal) A0)
        (((cfg0.win 1).blk t).view.read (Elt Ideal) A1) (((cfg0.win 2).blk t).view.read (Elt Ideal) A2)
        (((cfg0.win 3).blk t).view.read (Elt Ideal) A3) (((cfg0.win 4).blk t).view.read (Elt Ideal) A4)
        (((cfg0.win 5).blk t).view.read (Elt Ideal) A5) (((cfg0.win 6).blk t).view.read (Elt Ideal) A6))
      = ((cfg0.win 7).blk t).view.read (Elt Ideal) (wholeFn A0 A1 A2 A3 A4 A5 A6) := by
  obtain ⟨e00, e01, e10, e11, e20, e21, e30, e31, e40, e41, e50, e51, e60, e61, e70, e72, -⟩ := idx_facts t
  funext j
  have hj0 : (j 0).val < 128 := (j 0).isLt
  have hj1 : (j 1).val < 128 := (j 1).isLt
  have hj2 : (j 2).val < 128 := (j 2).isLt
  show kerCore _ _ (A0 _) (A1 _) (A2 _) (A3 _) (A4 _) (A5 _) (A6 _) = kerCore _ _ (A0 _) (A1 _) (A2 _) (A3 _) (A4 _) (A5 _) (A6 _)
  refine kerCore_congr (congrArg A0 ?_) (congrArg A1 ?_) (congrArg A2 ?_) (congrArg A3 ?_) (congrArg A4 ?_) (congrArg A5 ?_) (congrArg A6 ?_)
  ·
    funext a; apply Fin.ext
    match a with
    | ⟨0, _⟩ => show win0_0.index t (0 : Fin 2) * 128 + 1 * (j 0).val = win0_7.index t (0 : Fin 3) * 128 + 1 * (j 0).val; omega
    | ⟨1, _⟩ => show win0_0.index t (1 : Fin 2) * 128 + 1 * (j 1).val = win0_7.index t (1 : Fin 3) * 128 + 1 * (j 1).val; omega
  ·
    funext a; apply Fin.ext
    match a with
    | ⟨0, _⟩ => show win0_1.index t (0 : Fin 2) * 128 + 1 * (j 0).val = win0_7.index t (0 : Fin 3) * 128 + 1 * (j 0).val; omega
    | ⟨1, _⟩ => show win0_1.index t (1 : Fin 2) * 128 + 1 * (j 2).val = win0_7.index t (2 : Fin 3) * 128 + 1 * (j 2).val; omega
  ·
    funext a; apply Fin.ext
    match a with
    | ⟨0, _⟩ => show win0_2.index t (0 : Fin 2) * 128 + 1 * (j 0).val = win0_7.index t (0 : Fin 3) * 128 + 1 * (j 0).val; omega
    | ⟨1, _⟩ => show win0_2.index t (1 : Fin 2) * 128 + 1 * (j 2).val = win0_7.index t (2 : Fin 3) * 128 + 1 * (j 2).val; omega
  ·
    funext a; apply Fin.ext
    match a with
    | ⟨0, _⟩ => show win0_3.index t (0 : Fin 2) * 128 + 1 * (j 0).val = win0_7.index t (0 : Fin 3) * 128 + 1 * (j 0).val; omega
    | ⟨1, _⟩ => show win0_3.index t (1 : Fin 2) * 1 + 1 * 0 = 0; omega
  ·
    funext a; apply Fin.ext
    match a with
    | ⟨0, _⟩ => show win0_4.index t (0 : Fin 2) * 128 + 1 * (j 0).val = win0_7.index t (0 : Fin 3) * 128 + 1 * (j 0).val; omega
    | ⟨1, _⟩ => show win0_4.index t (1 : Fin 2) * 1 + 1 * 0 = 0; omega
  ·
    funext a; apply Fin.ext
    match a with
    | ⟨0, _⟩ => show win0_5.index t (0 : Fin 2) * 128 + 1 * (j 0).val = win0_7.index t (0 : Fin 3) * 128 + 1 * (j 0).val; omega
    | ⟨1, _⟩ => show win0_5.index t (1 : Fin 2) * 1 + 1 * 0 = 0; omega
  ·
    funext a; apply Fin.ext
    match a with
    | ⟨0, _⟩ => show win0_6.index t (0 : Fin 2) * 1 + 1 * 0 = 0; omega
    | ⟨1, _⟩ => show win0_6.index t (1 : Fin 2) * 128 + 1 * (j 2).val = win0_7.index t (2 : Fin 3) * 128 + 1 * (j 2).val; omega

/-- WHAT POINT t WRITES BACK is block t of `wholeFn` of the arrays the region finds. -/
theorem flushed_eq (c : Dev nD) (t : Fin cfg0.N) :
    (dats m 0 c).flushed 7 t = ((cfg0.win 7).blk t).view.read (Elt Ideal)
      (wholeFn (V m c main_v0) (V m c main_v30) (V m c main_v33) (V m c main_v17) (V m c main_v22) (V m c main_v27) (V m c main_v34)) := by
  rw [Value.flushed7_A, out_eq]
  unfold iblk
  exact block_of_whole (V m c main_v0) (V m c main_v30) (V m c main_v33) (V m c main_v17) (V m c main_v22) (V m c main_v27) (V m c main_v34) t

/-- An index of the output is in point t's block iff each coordinate is in the block's range on its axis. -/
theorem mem_blk (t : Fin cfg0.N) (i : S128x8192x128.Idx) :
    i ∈ ((cfg0.win 7).blk t).view.set ↔ ∀ a : Fin 3, win0_7.index t a * S128x128x128.size a ≤ (i a).val
      ∧ (i a).val < win0_7.index t a * S128x128x128.size a + S128x128x128.size a := by
  show i ∈ ((View.whole main_v35).slice (win0_7.rect t)).set ↔ _
  rw [View.set_slice_whole, Rect.mem_set_unit]
  exact Iff.rfl

/-- The 64 blocks tile the output: sample s lies in the block of the point with sample-block index s / 128. -/
theorem cover (i : S128x8192x128.Idx) :
    ∃ t : Fin cfg0.N, (cfg0.win 7).flush t = true ∧ i ∈ ((cfg0.win 7).blk t).view.set := by
  have hi0 : (i 0).val < 128 := (i 0).isLt
  have hi1 : (i 1).val < 8192 := (i 1).isLt
  have hi2 : (i 2).val < 128 := (i 2).isLt
  obtain ⟨t, ht⟩ := idx_onto ⟨(i 1).val / 128, by omega⟩
  have q0 : win0_7.index t (0 : Fin 3) = 0 := congrFun ht 0
  have q1 : win0_7.index t (1 : Fin 3) = (i 1).val / 128 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 128 ≤ (i 0).val ∧ (i 0).val < win0_7.index t (0 : Fin 3) * 128 + 128; omega
  | ⟨1, _⟩ => show win0_7.index t (1 : Fin 3) * 128 ≤ (i 1).val ∧ (i 1).val < win0_7.index t (1 : Fin 3) * 128 + 128; omega
  | ⟨2, _⟩ => show win0_7.index t (2 : Fin 3) * 128 ≤ (i 2).val ∧ (i 2).val < win0_7.index t (2 : Fin 3) * 128 + 128; omega

/-- THE OUTPUT ARRAY after the run. -/
theorem final (c : Dev nD) : (dats m 0 c).arrAt 7 cfg0.N
    = wholeFn (V m c main_v0) (V m c main_v30) (V m c main_v33) (V m c main_v17) (V m c main_v22) (V m c main_v27) (V m c main_v34) :=
  (dats m 0 c).arrAt_eq_of_cover 7 _ (fun t _ => flushed_eq m c t) cover

end Cert.KernelIdeal.Whole

end
-- ==== Proof.HostPrefix.lean ====
/-
  What the host computes before the kernel is launched, read at an entry.

  From the weight and bias matrices (128 feature rows by 128 model coordinates) the host forms, row by row: the row
  mean (sum over the model axis divided by 128, kept as a 128 x 1 column), the centred matrix (the matrix minus its
  row mean spread along the row), the three second moments of the centred rows (the row mean of the product of two
  centred matrices, again a column), and the centred matrices scaled coordinatewise by the gain vector. The input is
  transposed (features by samples) and the shift vector becomes a 1 x 128 row. Each of these arrays is read here at
  one entry in terms of the entries of the arguments, with the divisions and sums the extended-real ones
  (`rowMean`, `rowMoment`).
-/
import proofs.«106021_j41068477284866_2_alg».proof.Proof.Gen.KernelIdeal.Frame
import proofs.«106021_j41068477284866_2_alg».proof.Proof.LayerNormLaw
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostSide

open Cert.KernelIdeal Cert.KernelIdeal.Gen Cert.LayerNormLaw
open Idealize.ShloMosaic Idealize.ShloMosaic.TcCoe Idealize.SL.Sem Idealize.ShloMosaic.ValueIdx Idealize.ShloMosaic.StableHlo

/-- The count 128 as its f32 word. -/
abbrev cntW : EReal := Ideal.ofBits .f32 0x43000000#32

/-- The sum of each row, as a column. -/
def rowSumCol (y : FVec Ideal S128x128 .f32) : FVec Ideal S128x1 .f32 :=
  broadcastInDim S128x1 ![0] bcast_S128_S128x1_0
    (Host.reduceAdd (F := Ideal) y (constant (F := Ideal) S_ .f32 0x00000000#32) reducesTo_S128x128_S128_d1 h_S_)

/-- The count 128 in every entry of a column. -/
def countCol : FVec Ideal S128x1 .f32 :=
  broadcastInDim S128x1 ![] bcast_S_S128x1 (constant (F := Ideal) S_ .f32 0x43000000#32)

/-- The mean of each row, as a column. -/
def meanCol (A : FVec Ideal S128x128 .f32) : FVec Ideal S128x1 .f32 := Host.divf (F := Ideal) (φ := .f32) (rowSumCol A) countCol

/-- The matrix minus its row means. -/
def centred (A : FVec Ideal S128x128 .f32) : FVec Ideal S128x128 .f32 :=
  subf (F := Ideal) (φ := .f32) A (broadcastInDim S128x128 ![0, 1] bcast_S128x1_S128x128_0_1 (meanCol A))

/-- The row means of the product of two centred matrices, as a column. -/
def momentCol (A B : FVec Ideal S128x128 .f32) : FVec Ideal S128x1 .f32 :=
  Host.divf (F := Ideal) (φ := .f32) (rowSumCol (mulf (F := Ideal) (φ := .f32) (centred A) (centred B))) countCol

/-- The gain vector repeated down the rows. -/
def gainMat (g : FVec Ideal S128 .f32) : FVec Ideal S128x128 .f32 :=
  broadcastInDim S128x128 ![0, 1] bcast_S1x128_S128x128_0_1 (broadcastInDim S1x128 ![1] bcast_S128_S1x128_1 g)

/-- The centred matrix scaled coordinatewise by the gain. -/
def scaled (A : FVec Ideal S128x128 .f32) (g : FVec Ideal S128 .f32) : FVec Ideal S128x128 .f32 := mulf (F := Ideal) (φ := .f32) (centred A) (gainMat g)

/-! ## Each stage at an entry -/

/-- A row's sum, from zero. -/
theorem rowSumCol_at (y : FVec Ideal S128x128 .f32) (f : Fin 128) (u : Fin 1) :
    rowSumCol y (ix2 f u) = 0 + ∑ k : Fin 128, y (ix2 f k) := by
  unfold rowSumCol
  rw [broadcastInDim_apply _ bcast_S128_S128x1_0 _ (ix2 f u) (ix1 f) (fun a => match a with
    | ⟨0, _⟩ => by show f.val = if (128 : Nat) = 1 then 0 else f.val; rw [if_neg (by decide)])]
  simp only [Host.reduceAdd, Ideal.hostReduceAdd_def]
  rw [Ideal.hostReduceAdd_single reducesTo_S128x128_S128_d1 (by decide)]
  show Ideal.ofBits .f32 0x00000000#32 + _ = _
  rw [Ideal.ofBits_zero_f32]
  refine congrArg (_ + ·) (Finset.sum_congr rfl fun k _ => ?_)
  exact congrArg y (funext fun a => Fin.ext (by match a with | ⟨0, _⟩ => rfl | ⟨1, _⟩ => rfl))

/-- The count, at any entry. -/
theorem countCol_at (i : S128x1.Idx) : countCol i = cntW := by
  unfold countCol
  rw [broadcastInDim_apply _ bcast_S_S128x1 _ i ix0 (fun a => a.elim0)]
  rfl

/-- A row's mean. -/
theorem meanCol_at (A : FVec Ideal S128x128 .f32) (f : Fin 128) (u : Fin 1) :
    meanCol A (ix2 f u) = rowMean cntW (fun k : Fin 128 => A (ix2 f k)) := by
  show Ideal.div (rowSumCol A (ix2 f u)) (countCol (ix2 f u)) = _
  rw [rowSumCol_at, countCol_at]
  rfl

/-- A centred entry. -/
theorem centred_at (A : FVec Ideal S128x128 .f32) (f k : Fin 128) :
    centred A (ix2 f k) = A (ix2 f k) - rowMean cntW (fun j : Fin 128 => A (ix2 f j)) := by
  show A (ix2 f k) - broadcastInDim S128x128 ![0, 1] bcast_S128x1_S128x128_0_1 (meanCol A) (ix2 f k) = _
  rw [broadcastInDim_apply _ bcast_S128x1_S128x128_0_1 _ (ix2 f k) (ix2 f (0 : Fin 1)) (fun a => match a with
    | ⟨0, _⟩ => by show f.val = if (128 : Nat) = 1 then 0 else f.val; rw [if_neg (by decide)]
    | ⟨1, _⟩ => by show (0 : Nat) = if (1 : Nat) = 1 then 0 else k.val; rw [if_pos rfl]), meanCol_at]

/-- A row's second moment. -/
theorem momentCol_at (A B : FVec Ideal S128x128 .f32) (f : Fin 128) (u : Fin 1) :
    momentCol A B (ix2 f u) = rowMoment cntW (fun k : Fin 128 => A (ix2 f k)) (fun k : Fin 128 => B (ix2 f k)) := by
  show Ideal.div (rowSumCol (mulf (F := Ideal) (φ := .f32) (centred A) (centred B)) (ix2 f u)) (countCol (ix2 f u)) = _
  rw [rowSumCol_at, countCol_at]
  unfold rowMoment
  refine congrArg (fun z => Ideal.div (0 + z) cntW) (Finset.sum_congr rfl fun k _ => ?_)
  rw [mulf_apply, centred_at, centred_at]

/-- The gain at a column. -/
theorem gainMat_at (g : FVec Ideal S128 .f32) (f d : Fin 128) : gainMat g (ix2 f d) = g (ix1 d) := by
  unfold gainMat
  rw [broadcastInDim_apply _ bcast_S1x128_S128x128_0_1 _ (ix2 f d) (ix2 (0 : Fin 1) d) (fun a => match a with
    | ⟨0, _⟩ => by show (0 : Nat) = if (1 : Nat) = 1 then 0 else f.val; rw [if_pos rfl]
    | ⟨1, _⟩ => by show d.val = if (128 : Nat) = 1 then 0 else d.val; rw [if_neg (by decide)]),
    broadcastInDim_apply _ bcast_S128_S1x128_1 _ (ix2 (0 : Fin 1) d) (ix1 d) (fun a => match a with
    | ⟨0, _⟩ => by show d.val = if (128 : Nat) = 1 then 0 else d.val; rw [if_neg (by decide)])]

/-- A scaled centred entry. -/
theorem scaled_at (A : FVec Ideal S128x128 .f32) (g : FVec Ideal S128 .f32) (f d : Fin 128) :
    scaled A g (ix2 f d) = (A (ix2 f d) - rowMean cntW (fun j : Fin 128 => A (ix2 f j))) * g (ix1 d) := by
  show centred A (ix2 f d) * gainMat g (ix2 f d) = _
  rw [centred_at, gainMat_at]

/-- The transposed input at (feature, sample). -/
theorem transpose_at (X : FVec Ideal S8192x128 .f32) (f : Fin 128) (s : Fin 8192) :
    transpose S128x8192 [1, 0] X transposes_S8192x128_S128x8192_1_0 (ix2 f s) = X (ix2 s f) :=
  transpose_apply [1, 0] X transposes_S8192x128_S128x8192_1_0 (ix2 f s) (ix2 s f) (fun b => match b with
    | ⟨0, _⟩ => rfl
    | ⟨1, _⟩ => rfl)

/-- The shift row at a column. -/
theorem shiftRow_at (β : FVec Ideal S128 .f32) (u : Fin 1) (d : Fin 128) :
    shapeCast S1x128 β shapeCasts_S128_S1x128 (ix2 u d) = β (ix1 d) :=
  shapeCast_apply β shapeCasts_S128_S1x128 _ _ (by
    have hu : u.val = 0 := by omega
    rw [Shape.rowMajor_val_one, Shape.rowMajor_val_two]
    show d.val = u.val * 128 + d.val
    rw [hu]; omega)

variable (m : (ℓ : Loc nD τ sig) → Buf (Elt Ideal) ℓ)

/-! ## The arrays the region finds -/

theorem V_xT (c : Dev nD) : (V m c main_v0 : S128x8192.Idx → EReal)
    = transpose S128x8192 [1, 0] (m ((c : Thread nD τ).loc main_arg0)) transposes_S8192x128_S128x8192_1_0 := by
  dsimp only [Gen.V, Gen.hostOps0]; after_results <;> rfl

set_option maxHeartbeats 4000000 in
theorem V_wg (c : Dev nD) : (V m c main_v30 : S128x128.Idx → EReal)
    = scaled (m ((c : Thread nD τ).loc main_arg1)) (m ((c : Thread nD τ).loc main_arg3)) := by
  dsimp only [Gen.V, Gen.hostOps0]; after_results <;> rfl

set_option maxHeartbeats 4000000 in
theorem V_bg (c : Dev nD) : (V m c main_v33 : S128x128.Idx → EReal)
    = scaled (m ((c : Thread nD τ).loc main_arg2)) (m ((c : Thread nD τ).loc main_arg3)) := by
  dsimp only [Gen.V, Gen.hostOps0]; after_results <;> rfl

theorem V_mww (c : Dev nD) : (V m c main_v17 : S128x1.Idx → EReal)
    = momentCol (m ((c : Thread nD τ).loc main_arg1)) (m ((c : Thread nD τ).loc main_arg1)) := by
  dsimp only [Gen.V, Gen.hostOps0]; after_results <;> rfl

set_option maxHeartbeats 4000000 in
theorem V_mwb (c : Dev nD) : (V m c main_v22 : S128x1.Idx → EReal)
    = momentCol (m ((c : Thread nD τ).loc main_arg1)) (m ((c : Thread nD τ).loc main_arg2)) := by
  dsimp only [Gen.V, Gen.hostOps0]; after_results <;> rfl

theorem V_mbb (c : Dev nD) : (V m c main_v27 : S128x1.Idx → EReal)
    = momentCol (m ((c : Thread nD τ).loc main_arg2)) (m ((c : Thread nD τ).loc main_arg2)) := by
  dsimp only [Gen.V, Gen.hostOps0]; after_results <;> rfl

theorem V_shift (c : Dev nD) : (V m c main_v34 : S1x128.Idx → EReal)
    = shapeCast S1x128 (m ((c : Thread nD τ).loc main_arg4)) shapeCasts_S128_S1x128 := by
  dsimp only [Gen.V, Gen.hostOps0]; after_results <;> rfl

end Cert.KernelIdeal.HostSide

end
-- ==== Proof.RefValue.lean ====
/-
  The reference at one entry of its result.

  The reference forms e[f, s, k] = x[s, f] * W[f, k] + b[f, k], its mean and variance over k (sums from zero divided by
  the count 128, kept with a unit last axis and spread back), multiplies the centred value by the reciprocal square
  root of variance + epsilon, then by the gain and adds the shift. Read stage by stage at an entry (f, s, d), the result
  is the scalar expression `refPt` of x[s, f], of rows f of W and b, and of the gain and shift at d.
-/
import proofs.«106021_j41068477284866_2_alg».proof.Proof.Gen.ReferenceIdeal.Read
import proofs.«106021_j41068477284866_2_alg».proof.Proof.LayerNormLaw
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.LayerNormLaw
open Idealize.ShloMosaic Idealize.ShloMosaic.ValueIdx

/-- The count 128 as its f32 word. -/
abbrev cntW : EReal := Ideal.ofBits .f32 0x43000000#32
/-- The epsilon as its f32 word. -/
abbrev epsW : EReal := Ideal.ofBits .f32 0x3727C5AC#32

/-- The affine family at (f, s, k). -/
theorem emb_at (x0 : (⟨S8192x128, .f32⟩ : BufTy).Contents (Elt Ideal)) (x1 x2 : (⟨S128x128, .f32⟩ : BufTy).Contents (Elt Ideal)) (f : Fin 128) (s : Fin 8192) (k : Fin 128) :
    val_main_v8 (F := Ideal) x0 x1 x2 (ix3 f s k) = x0 (ix2 s f) * x1 (ix2 f k) + x2 (ix2 f k) := by
  rw [val_main_v8_apply, val_main_v5_apply, val_main_v3_apply, val_main_v1_apply, val_main_v0_apply, val_main_v4_apply,
    val_main_v2_apply, val_main_v7_apply, val_main_v6_apply]
  have e0 : idx_main_v0 (idx_main_v1 (idx_main_v3 (ix3 f s k))) = ix2 s f := funext fun a => Fin.ext (by match a with | ⟨0, _⟩ => rfl | ⟨1, _⟩ => rfl)
  have e1 : idx_main_v2 (idx_main_v4 (ix3 f s k)) = ix2 f k := funext fun a => Fin.ext (by match a with | ⟨0, _⟩ => rfl | ⟨1, _⟩ => rfl)
  have e2 : idx_main_v6 (idx_main_v7 (ix3 f s k)) = ix2 f k := funext fun a => Fin.ext (by match a with | ⟨0, _⟩ => rfl | ⟨1, _⟩ => rfl)
  rw [e0, e1, e2]
  rfl

/-- Its mean over k, at (f, s, 0). -/
theorem mean_at (x0 : (⟨S8192x128, .f32⟩ : BufTy).Contents (Elt Ideal)) (x1 x2 : (⟨S128x128, .f32⟩ : BufTy).Contents (Elt Ideal)) (f : Fin 128) (s : Fin 8192) (u : Fin 1) :
    val_main_v12 (F := Ideal) x0 x1 x2 (ix3 f s u)
      = Ideal.div (0 + ∑ k : Fin 128, (x0 (ix2 s f) * x1 (ix2 f k) + x2 (ix2 f k))) cntW := by
  rw [val_main_v12_apply, val_main_v10_apply, val_main_v9_apply, val_main_v11_apply, val_main_cst_0_apply, val_main_cst_apply]
  have es : ∀ k : Fin 128, val_main_v8 (F := Ideal) x0 x1 x2 (idx_main_v9 (idx_main_v10 (ix3 f s u)) k)
      = x0 (ix2 s f) * x1 (ix2 f k) + x2 (ix2 f k) := fun k => by
    have e : idx_main_v9 (idx_main_v10 (ix3 f s u)) k = ix3 f s k := funext fun a => Fin.ext (by match a with | ⟨0, _⟩ => rfl | ⟨1, _⟩ => rfl | ⟨2, _⟩ => rfl)
    rw [e, emb_at]
  rw [Finset.sum_congr rfl fun k _ => es k]
  show Ideal.div (Ideal.ofBits .f32 0x00000000#32 + _) _ = _
  rw [Ideal.ofBits_zero_f32]
  rfl

/-- The centred family at (f, s, k), as the variance reads it, -/
theorem cen_at (x0 : (⟨S8192x128, .f32⟩ : BufTy).Contents (Elt Ideal)) (x1 x2 : (⟨S128x128, .f32⟩ : BufTy).Contents (Elt Ideal)) (f : Fin 128) (s : Fin 8192) (k : Fin 128) :
    val_main_v14 (F := Ideal) x0 x1 x2 (ix3 f s k)
      = (x0 (ix2 s f) * x1 (ix2 f k) + x2 (ix2 f k))
        - Ideal.div (0 + ∑ j : Fin 128, (x0 (ix2 s f) * x1 (ix2 f j) + x2 (ix2 f j))) cntW := by
  rw [val_main_v14_apply, val_main_v13_apply, emb_at]
  have e : idx_main_v13 (ix3 f s k) = ix3 f s (0 : Fin 1) := funext fun a => Fin.ext (by match a with | ⟨0, _⟩ => rfl | ⟨1, _⟩ => rfl | ⟨2, _⟩ => rfl)
  rw [e, mean_at]
  rfl

/-- and as the normalisation reads it. -/
theorem cen_at' (x0 : (⟨S8192x128, .f32⟩ : BufTy).Contents (Elt Ideal)) (x1 x2 : (⟨S128x128, .f32⟩ : BufTy).Contents (Elt Ideal)) (f : Fin 128) (s : Fin 8192) (k : Fin 128) :
    val_main_v21 (F := Ideal) x0 x1 x2 (ix3 f s k)
      = (x0 (ix2 s f) * x1 (ix2 f k) + x2 (ix2 f k))
        - Ideal.div (0 + ∑ j : Fin 128, (x0 (ix2 s f) * x1 (ix2 f j) + x2 (ix2 f j))) cntW := by
  rw [val_main_v21_apply, val_main_v20_apply, emb_at]
  have e : idx_main_v20 (ix3 f s k) = ix3 f s (0 : Fin 1) := funext fun a => Fin.ext (by match a with | ⟨0, _⟩ => rfl | ⟨1, _⟩ => rfl | ⟨2, _⟩ => rfl)
  rw [e, mean_at]
  rfl

/-- The reciprocal square root of variance + epsilon, at (f, s, 0). -/
theorem inv_at (x0 : (⟨S8192x128, .f32⟩ : BufTy).Contents (Elt Ideal)) (x1 x2 : (⟨S128x128, .f32⟩ : BufTy).Contents (Elt Ideal)) (f : Fin 128) (s : Fin 8192) (u : Fin 1) :
    val_main_v24 (F := Ideal) x0 x1 x2 (ix3 f s u)
      = Ideal.rsqrt (Ideal.div (0 + ∑ k : Fin 128,
          ((x0 (ix2 s f) * x1 (ix2 f k) + x2 (ix2 f k))
            - Ideal.div (0 + ∑ j : Fin 128, (x0 (ix2 s f) * x1 (ix2 f j) + x2 (ix2 f j))) cntW)
          * ((x0 (ix2 s f) * x1 (ix2 f k) + x2 (ix2 f k))
            - Ideal.div (0 + ∑ j : Fin 128, (x0 (ix2 s f) * x1 (ix2 f j) + x2 (ix2 f j))) cntW)) cntW + epsW) := by
  rw [val_main_v24_apply, val_main_v23_apply, val_main_v19_apply, val_main_v17_apply, val_main_v16_apply, val_main_v18_apply,
    val_main_cst_2_apply, val_main_v22_apply, val_main_cst_3_apply, val_main_cst_1_apply]
  have es : ∀ k : Fin 128, val_main_v15 (F := Ideal) x0 x1 x2 (idx_main_v16 (idx_main_v17 (ix3 f s u)) k)
      = ((x0 (ix2 s f) * x1 (ix2 f k) + x2 (ix2 f k))
            - Ideal.div (0 + ∑ j : Fin 128, (x0 (ix2 s f) * x1 (ix2 f j) + x2 (ix2 f j))) cntW)
          * ((x0 (ix2 s f) * x1 (ix2 f k) + x2 (ix2 f k))
            - Ideal.div (0 + ∑ j : Fin 128, (x0 (ix2 s f) * x1 (ix2 f j) + x2 (ix2 f j))) cntW) := fun k => by
    have e : idx_main_v16 (idx_main_v17 (ix3 f s u)) k = ix3 f s k := funext fun a => Fin.ext (by match a with | ⟨0, _⟩ => rfl | ⟨1, _⟩ => rfl | ⟨2, _⟩ => rfl)
    rw [e, val_main_v15_apply, cen_at]
    rfl
  rw [Finset.sum_congr rfl fun k _ => es k]
  show Ideal.rsqrt (Ideal.div (Ideal.ofBits .f32 0x00000000#32 + _) _ + _) = _
  rw [Ideal.ofBits_zero_f32]
  rfl

/-- THE REFERENCE'S RESULT at (f, s, d). -/
theorem ref_at (x0 : (⟨S8192x128, .f32⟩ : BufTy).Contents (Elt Ideal)) (x1 x2 : (⟨S128x128, .f32⟩ : BufTy).Contents (Elt Ideal)) (x3 x4 : (⟨S128, .f32⟩ : BufTy).Contents (Elt Ideal)) (f : Fin 128) (s : Fin 8192) (d : Fin 128) :
    val_main_v32 (F := Ideal) x0 x1 x2 x3 x4 (ix3 f s d)
      = refPt cntW epsW (x0 (ix2 s f)) (x3 (ix1 d)) (x4 (ix1 d)) (fun k : Fin 128 => x1 (ix2 f k)) (fun k : Fin 128 => x2 (ix2 f k)) d := by
  rw [val_main_v32_apply, val_main_v29_apply, val_main_v26_apply, cen_at', val_main_v25_apply, val_main_v28_apply,
    val_main_v27_apply, val_main_v31_apply, val_main_v30_apply]
  have e25 : idx_main_v25 (ix3 f s d) = ix3 f s (0 : Fin 1) := funext fun a => Fin.ext (by match a with | ⟨0, _⟩ => rfl | ⟨1, _⟩ => rfl | ⟨2, _⟩ => rfl)
  have e3 : idx_main_v27 (idx_main_v28 (ix3 f s d)) = ix1 d := funext fun a => Fin.ext (by match a with | ⟨0, _⟩ => rfl)
  have e4 : idx_main_v30 (idx_main_v31 (ix3 f s d)) = ix1 d := funext fun a => Fin.ext (by match a with | ⟨0, _⟩ => rfl)
  rw [e25, inv_at, e3, e4]
  rfl

end Cert.ReferenceIdeal.RefValue

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FiniteInputs.lean ====
/-
  Under the precondition every entry of every argument is a real number.

  The precondition tests each of the five float arguments by all(|x| < +inf) and conjoins the five bits. Each bit being
  one gives the elementwise test at every entry, and an extended real whose absolute value is below +inf is neither
  infinity: a real number.
-/
import proofs.«106021_j41068477284866_2_alg».proof.Pre_finite_inputs
import proofs.«106021_j41068477284866_2_alg».proof.Proof.Gen.Pre_finite_inputs
import proofs.«106021_j41068477284866_2_alg».proof.Proof.LibFiniteEntry
import Idealize.ShloMosaic.Lib.Affine
import Idealize.ShloMosaic.Lib.ReduceAll
import Idealize.ShloMosaic.Lib.ValueIdx

noncomputable section

namespace Cert.FiniteInputs

open Cert.Pre_finite_inputs Idealize.ShloMosaic Cert.Lib.FiniteEntry

/-- Every entry of every argument is real. -/
theorem reals [Cert.Pre_finite_inputs.Facts] (a0 : FVec Ideal S8192x128 .f32) (a1 a2 : FVec Ideal S128x128 .f32)
    (a3 a4 : FVec Ideal S128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h00, h1⟩ := IntOp.andi_eq_one.mp h01
  exact ⟨fun i => entry_real _ a0 i (Host.reduce_andi_all _ _ _ _ _ h00 i),
    fun i => entry_real _ a1 i (Host.reduce_andi_all _ _ _ _ _ h1 i),
    fun i => entry_real _ a2 i (Host.reduce_andi_all _ _ _ _ _ h2 i),
    fun i => entry_real _ a3 i (Host.reduce_andi_all _ _ _ _ _ h3 i),
    fun i => entry_real _ a4 i (Host.reduce_andi_all _ _ _ _ _ h4 i)⟩

end Cert.FiniteInputs

end
-- ==== Proof.Consts.lean ====
/-
  The f32 words the two programs share, as real numbers: 128.0 (the count the means divide by), 2.0, and the
  epsilon 0x3727C5AC (the f32 nearest 1e-5), a positive real.
-/
import Idealize.ShloMosaic.PureOps.Ideal
import Mathlib.Tactic.NormNum
import Mathlib.Tactic.Positivity

noncomputable section

namespace Cert.Consts

open Idealize.ShloMosaic

/-- The word of 128.0 is the real number 128. -/
theorem ofBits_128 : Ideal.ofBits .f32 0x43000000#32 = ((128 : ℝ) : EReal) := by
  simp [Ideal.ofBits, Ideal.ieee, -EReal.coe_mul]; norm_num

/-- The word of 2.0 is the real number 2. -/
theorem ofBits_two : Ideal.ofBits .f32 0x40000000#32 = ((2 : ℝ) : EReal) := by
  simp [Ideal.ofBits, Ideal.ieee, -EReal.coe_mul]; norm_num

/-- The epsilon's word is a positive real number. -/
theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

end Cert.Consts

end
-- ==== Proof.Bridge.lean ====
/-
  The kernel's output array and the reference's result are one function of real arguments.

  At entry (f, s, d): the kernel's value is `kerCore` of x[s, f], of the scaled centred entries (W[f, d] - mean W[f, .]) * g[d]
  and (b[f, d] - mean b[f, .]) * g[d], of the three second moments of rows f of W and b, and of beta[d] (the host's
  prefix read at an entry); the reference's is `refPt` of x[s, f], rows f of W and b, g[d] and beta[d]. With every
  argument entry a real number (the precondition), the count 128 and the epsilon positive reals, these agree by the
  layer-normalisation law.
-/
import proofs.«106021_j41068477284866_2_alg».proof.Proof.KernelValue
import proofs.«106021_j41068477284866_2_alg».proof.Proof.HostPrefix
import proofs.«106021_j41068477284866_2_alg».proof.Proof.RefValue
import proofs.«106021_j41068477284866_2_alg».proof.Proof.FiniteInputs
import proofs.«106021_j41068477284866_2_alg».proof.Proof.Consts

noncomputable section

namespace Cert.Proof.Bridge

open Cert.KernelIdeal Cert.KernelIdeal.Gen Cert.KernelIdeal.Body Cert.KernelIdeal.Whole Cert.KernelIdeal.HostSide
open Cert.LayerNormLaw Cert.Consts
open Idealize.ShloMosaic Idealize.ShloMosaic.TcCoe Idealize.SL.Sem Idealize.ShloMosaic.ValueIdx

/-- The kernel's output at (f, s, d), from the arguments, given what the seven arrays the region finds are. -/
theorem kernel_point (A0 : S128x8192.Idx → EReal) (A1 A2 : S128x128.Idx → EReal) (A3 A4 A5 : S128x1.Idx → EReal)
    (A6 : S1x128.Idx → EReal) (X : FVec Ideal S8192x128 .f32) (W B : FVec Ideal S128x128 .f32) (G S : FVec Ideal S128 .f32)
    (h0 : A0 = transpose S128x8192 [1, 0] X transposes_S8192x128_S128x8192_1_0) (h1 : A1 = scaled W G) (h2 : A2 = scaled B G)
    (h3 : A3 = momentCol W W) (h4 : A4 = momentCol W B) (h5 : A5 = momentCol B B)
    (h6 : A6 = shapeCast S1x128 S shapeCasts_S128_S1x128) (f : Fin 128) (s : Fin 8192) (d : Fin 128) :
    wholeFn A0 A1 A2 A3 A4 A5 A6 (ix3 f s d)
      = kerCore epsW twoW (X (ix2 s f))
          ((W (ix2 f d) - rowMean cntW (fun j : Fin 128 => W (ix2 f j))) * G (ix1 d))
          ((B (ix2 f d) - rowMean cntW (fun j : Fin 128 => B (ix2 f j))) * G (ix1 d))
          (rowMoment cntW (fun k : Fin 128 => W (ix2 f k)) (fun k : Fin 128 => W (ix2 f k)))
          (rowMoment cntW (fun k : Fin 128 => W (ix2 f k)) (fun k : Fin 128 => B (ix2 f k)))
          (rowMoment cntW (fun k : Fin 128 => B (ix2 f k)) (fun k : Fin 128 => B (ix2 f k)))
          (S (ix1 d)) := by
  subst h0 h1 h2 h3 h4 h5 h6
  show kerCore epsW twoW (transpose S128x8192 [1, 0] X transposes_S8192x128_S128x8192_1_0 (ix2 f s))
    (scaled W G (ix2 f d)) (scaled B G (ix2 f d)) (momentCol W W (ix2 f (0 : Fin 1))) (momentCol W B (ix2 f (0 : Fin 1)))
    (momentCol B B (ix2 f (0 : Fin 1))) (shapeCast S1x128 S shapeCasts_S128_S1x128 (ix2 (0 : Fin 1) d)) = _
  rw [transpose_at, scaled_at, scaled_at, momentCol_at, momentCol_at, momentCol_at, shiftRow_at]

/-- At real arguments that expression is the reference's result at (f, s, d). -/
theorem law_point (X : FVec Ideal S8192x128 .f32) (W B : FVec Ideal S128x128 .f32) (G S : FVec Ideal S128 .f32)
    (hX : ∀ i, ∃ r : ℝ, X i = (r : EReal)) (hW : ∀ i, ∃ r : ℝ, W i = (r : EReal)) (hB : ∀ i, ∃ r : ℝ, B i = (r : EReal))
    (hG : ∀ i, ∃ r : ℝ, G i = (r : EReal)) (hS : ∀ i, ∃ r : ℝ, S i = (r : EReal)) (f : Fin 128) (s : Fin 8192) (d : Fin 128) :
    kerCore epsW twoW (X (ix2 s f))
          ((W (ix2 f d) - rowMean cntW (fun j : Fin 128 => W (ix2 f j))) * G (ix1 d))
          ((B (ix2 f d) - rowMean cntW (fun j : Fin 128 => B (ix2 f j))) * G (ix1 d))
          (rowMoment cntW (fun k : Fin 128 => W (ix2 f k)) (fun k : Fin 128 => W (ix2 f k)))
          (rowMoment cntW (fun k : Fin 128 => W (ix2 f k)) (fun k : Fin 128 => B (ix2 f k)))
          (rowMoment cntW (fun k : Fin 128 => B (ix2 f k)) (fun k : Fin 128 => B (ix2 f k)))
          (S (ix1 d))
      = Cert.ReferenceIdeal.Read.val_main_v32 (F := Ideal) X W B G S (ix3 f s d) := by
  rw [Cert.ReferenceIdeal.RefValue.ref_at]
  obtain ⟨x, hx⟩ := hX (ix2 s f)
  obtain ⟨g, hg⟩ := hG (ix1 d)
  obtain ⟨β, hβ⟩ := hS (ix1 d)
  choose w hw using fun k : Fin 128 => hW (ix2 f k)
  choose b hb using fun k : Fin 128 => hB (ix2 f k)
  obtain ⟨ε, hε0, hε⟩ := ofBits_eps
  have ew : (fun k : Fin 128 => W (ix2 f k)) = fun k => (w k : EReal) := funext hw
  have eb : (fun k : Fin 128 => B (ix2 f k)) = fun k => (b k : EReal) := funext hb
  have e128 : cntW = ((128 : ℝ) : EReal) := ofBits_128
  have e128' : Cert.ReferenceIdeal.RefValue.cntW = ((128 : ℝ) : EReal) := ofBits_128
  have e2 : twoW = ((2 : ℝ) : EReal) := ofBits_two
  have eε : epsW = (ε : EReal) := hε
  have eε' : Cert.ReferenceIdeal.RefValue.epsW = (ε : EReal) := hε
  rw [ew, eb, hw d, hb d, e128, e2, eε, e128', eε', hx, hg, hβ]
  exact (refPt_eq_kerCore 128 ε (by norm_num) hε0 x g β w b d).symm

variable (m : (ℓ : Loc nD τ sig) → Buf (Elt Ideal) ℓ)

/-- Under the precondition the kernel's output array is the reference's result. -/
theorem kernel_eq_ref (c : Dev nD)
    (h : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    wholeFn (V m c main_v0) (V m c main_v30) (V m c main_v33) (V m c main_v17) (V m c main_v22) (V m c main_v27) (V m c main_v34)
      = Cert.ReferenceIdeal.Read.val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  obtain ⟨hX, hW, hB, hG, hS⟩ := Cert.FiniteInputs.reals _ _ _ _ _ h
  funext i
  obtain ⟨f, s, d, rfl⟩ : ∃ (f : Fin 128) (s : Fin 8192) (d : Fin 128), i = ix3 f s d := ⟨i 0, i 1, i 2, eq_ix3 i⟩
  rw [kernel_point _ _ _ _ _ _ _ (m ((c : Thread nD τ).loc main_arg0)) (m ((c : Thread nD τ).loc main_arg1))
    (m ((c : Thread nD τ).loc main_arg2)) (m ((c : Thread nD τ).loc main_arg3)) (m ((c : Thread nD τ).loc main_arg4))
    (V_xT m c) (V_wg m c) (V_bg m c) (V_mww m c) (V_mwb m c) (V_mbb m c) (V_shift m c) f s d]
  exact law_point _ _ _ _ _ hX hW hB hG hS f s d

end Cert.Proof.Bridge

end
-- ==== Proof.lean ====
/-
  Layer normalisation of a per-feature affine embedding: the kernel against the reference.

  Both programs compute out[f, s, d] = normalise_d(x[s, f] * W[f, d] + b[f, d]) * gamma[d] + beta[d]. The reference
  normalises the 128 x 8192 x 128 array directly (mean and variance over d). The kernel centres W and b on the host,
  forms the three second moments of the centred rows and the centred rows scaled by gamma, and in its body evaluates the
  variance as a quadratic in x[s, f] — no reduction inside the body —, 128 samples per grid point, 32 feature rows per trip.
  At real arguments the two are one function (the layer-normalisation law); the kernel's array after the run is that
  function of the arrays the host prepared (each grid point's block a restriction of it, the blocks tiling the output),
  and the reference's run ends at the same function read stage by stage.
-/
import proofs.«106021_j41068477284866_2_alg».proof.Defs
import proofs.«106021_j41068477284866_2_alg».proof.Proof.Gen.Kernel
import proofs.«106021_j41068477284866_2_alg».proof.Proof.Gen.Kernel.Skeleton
import proofs.«106021_j41068477284866_2_alg».proof.Proof.Gen.Kernel.Loops
import proofs.«106021_j41068477284866_2_alg».proof.Proof.Gen.Kernel.Launch
import proofs.«106021_j41068477284866_2_alg».proof.Proof.Gen.Kernel.Points
import proofs.«106021_j41068477284866_2_alg».proof.Proof.Gen.Kernel.Frame
import proofs.«106021_j41068477284866_2_alg».proof.Proof.Gen.KernelIdeal
import proofs.«106021_j41068477284866_2_alg».proof.Proof.Gen.KernelIdeal.Skeleton
import proofs.«106021_j41068477284866_2_alg».proof.Proof.Gen.KernelIdeal.Loops
import proofs.«106021_j41068477284866_2_alg».proof.Proof.Gen.KernelIdeal.Launch
import proofs.«106021_j41068477284866_2_alg».proof.Proof.Gen.KernelIdeal.Points
import proofs.«106021_j41068477284866_2_alg».proof.Proof.Gen.KernelIdeal.Frame
import proofs.«106021_j41068477284866_2_alg».proof.Proof.Gen.ReferenceIdeal
import proofs.«106021_j41068477284866_2_alg».proof.Proof.Gen.Pre_finite_inputs
import proofs.«106021_j41068477284866_2_alg».proof.Proof.Gen.KernelIdeal.Value
import proofs.«106021_j41068477284866_2_alg».proof.Proof.Gen.ReferenceIdeal.Run
import proofs.«106021_j41068477284866_2_alg».proof.Proof.Gen.ReferenceIdeal.Read
import proofs.«106021_j41068477284866_2_alg».proof.Proof.Bridge
import Idealize.ShloMosaic.Adequacy
import Idealize.ShloMosaic.Init

noncomputable section

namespace Cert.Proof

open Idealize.ShloMosaic Idealize.SL.Sem

/-- The two idealized programs end with equal results: the kernel's run leaves the output array at the array the grid
    points' blocks make up, the reference's run its composed term, and under the precondition these are one array. -/
theorem algebraic : Cert.algebraic_KernelIdeal_ReferenceIdeal := by
  intro m ρ m' ρ' hpre hagree
  refine ⟨fun c => (Cert.KernelIdeal.Gen.dats m 0 c).arrAt 7 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2]
  exact (Cert.Proof.Bridge.kernel_eq_ref m c (hpre c)).symm.trans (Cert.KernelIdeal.Whole.final m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
